-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x2048 : Shape := ⟨3, ![64, 128, 2048]⟩
abbrev S128x128x3 : Shape := ⟨3, ![128, 128, 3]⟩
abbrev S128 : Shape := ⟨1, ![128]⟩
abbrev S_ : Shape := ⟨0, ![]⟩

class Facts : Prop where
  bcast_S_S64x128x2048 : S_.BroadcastsInDim S64x128x2048 (![] : Fin 0 → Fin S64x128x2048.rank)
  reducesTo_S64x128x2048_S_d0_1_2 : S64x128x2048.ReducesTo [0, 1, 2] S_
  h_S_ : 0 < S_.numel
  bcast_S_S128x128x3 : S_.BroadcastsInDim S128x128x3 (![] : Fin 0 → Fin S128x128x3.rank)
  reducesTo_S128x128x3_S_d0_1_2 : S128x128x3.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S64x128x2048 .f32) (main_arg1 : FVec F S128x128x3 .f32) (main_arg2 : FVec F S128 .f32) (main_arg3 : FVec F S128 .f32) : IVec S_ 1 :=
  let main_v0 : FVec F S64x128x2048 .f32 := Host.absf main_arg0
  let main_cst : FVec F S_ .f32 := constant S_ .f32 0x7F800000#32
  let main_v1 : FVec F S64x128x2048 .f32 := broadcastInDim S64x128x2048 ![] bcast_S_S64x128x2048 main_cst
  let main_v2 : IVec S64x128x2048 1 := cmpf .olt main_v0 main_v1
  let main_c : IVec S_ 1 := constantI S_ 1 1#1
  let main_v3 : IVec S_ 1 := (fun x v => Host.reduce IntOp.andi x v reducesTo_S64x128x2048_S_d0_1_2 h_S_) main_v2 main_c
  let main_v4 : FVec F S128x128x3 .f32 := Host.absf main_arg1
  let main_cst_0 : FVec F S_ .f32 := constant S_ .f32 0x7F800000#32
  let main_v5 : FVec F S128x128x3 .f32 := broadcastInDim S128x128x3 ![] bcast_S_S128x128x3 main_cst_0
  let main_v6 : IVec S128x128x3 1 := cmpf .olt main_v4 main_v5
  let main_c_1 : IVec S_ 1 := constantI S_ 1 1#1
  let main_v7 : IVec S_ 1 := (fun x v => Host.reduce IntOp.andi x v reducesTo_S128x128x3_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S64x128x2048 : Shape := ⟨3, ![64, 128, 2048]⟩
abbrev S128x128x3 : Shape := ⟨3, ![128, 128, 3]⟩
abbrev S128 : Shape := ⟨1, ![128]⟩
abbrev S128x3x128 : Shape := ⟨3, ![128, 3, 128]⟩
abbrev S128x384 : Shape := ⟨2, ![128, 384]⟩
abbrev S64x128x2 : Shape := ⟨3, ![64, 128, 2]⟩
abbrev S1x128x2048 : Shape := ⟨3, ![1, 128, 2048]⟩
abbrev S1x128x2 : Shape := ⟨3, ![1, 128, 2]⟩
abbrev S128x2048 : Shape := ⟨2, ![128, 2048]⟩
abbrev S128x1 : Shape := ⟨2, ![128, 1]⟩
abbrev S128x2047 : Shape := ⟨2, ![128, 2047]⟩
abbrev S384x2048 : Shape := ⟨2, ![384, 2048]⟩
abbrev S128x2 : Shape := ⟨2, ![128, 2]⟩
abbrev S_ : Shape := ⟨0, ![]⟩

abbrev nBuf : Space → Nat
  | .hbm => 34
  | .vmem => 12
  | .smem => 0
  | _ => 0

abbrev bufTy : (tb : Table) → Fin (tcTables nBuf tb) → BufTy
  | .hbm, ⟨0, _⟩ => ⟨S64x128x2048, .f32⟩
  | .hbm, ⟨1, _⟩ => ⟨S128x128x3, .f32⟩
  | .hbm, ⟨2, _⟩ => ⟨S128, .f32⟩
  | .hbm, ⟨3, _⟩ => ⟨S128, .f32⟩
  | .hbm, ⟨4, _⟩ => ⟨S128x3x128, .f32⟩
  | .hbm, ⟨5, _⟩ => ⟨S128x384, .f32⟩
  | .hbm, ⟨6, _⟩ => ⟨S128x384, .bf16⟩
  | .hbm, ⟨7, _⟩ => ⟨S64x128x2048, .bf16⟩
  | .hbm, ⟨8, _⟩ => ⟨S64x128x2, .f32⟩
  | .hbm, ⟨9, _⟩ => ⟨S_, .f32⟩
  | .hbm, ⟨10, _⟩ => ⟨S128x2, .f32⟩
  | .hbm, ⟨11, _⟩ => ⟨S128x1, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128x1, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128x1, .f32⟩
  | .hbm, ⟨31, _⟩ => ⟨S128x1, .f32⟩
  | .hbm, ⟨32, _⟩ => ⟨S128x2, .f32⟩
  | .hbm, ⟨33, _⟩ => ⟨S64x128x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x384, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2, .f32⟩
  | .local _ .vmem, ⟨6, _⟩ => ⟨S1x128x2, .f32⟩
  | .local _ .vmem, ⟨7, _⟩ => ⟨S1x128x2048, .bf16⟩
  | .local _ .vmem, ⟨8, _⟩ => ⟨S1x128x2048, .bf16⟩
  | .local _ .vmem, ⟨9, _⟩ => ⟨S128x2, .f32⟩
  | .local _ .vmem, ⟨10, _⟩ => ⟨S1x128x2048, .f32⟩
  | .local _ .vmem, ⟨11, _⟩ => ⟨S1x128x2048, .f32⟩
  | _, _ => ⟨S64x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128x3_S128x3x128_0_2_1 : S128x128x3.Transposes [0, 2, 1] S128x3x128
  shapeCasts_S128x3x128_S128x384 : S128x3x128.ShapeCasts S128x384
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  slices_S128x2048_o0_0_S128x2047 : S128x2048.Slices ![0, 0] S128x2047
  concatenates_S128x1_S128x2047_S128x2048_d1 : Shape.Concatenates [S128x1, S128x2047] S128x2048 1
  slices_S128x2048_o0_1_S128x2047 : S128x2048.Slices ![0, 1] S128x2047
  concatenates_S128x2047_S128x1_S128x2048_d1 : Shape.Concatenates [S128x2047, S128x1] S128x2048 1
  concatenates_S128x2048_S128x2048_S128x2048_S384x2048_d0 : Shape.Concatenates [S128x2048, S128x2048, S128x2048] S384x2048 0
  inb_S128x384_S128x384_0_0 : ∀ a, (![0, 0] : Fin 2 → Nat) a + S128x384.size a ≤ S128x384.size a
  h_S128x384 : 0 < S128x384.numel
  shapeCasts_S128x384_S128x384 : S128x384.ShapeCasts S128x384
  shapeCasts_S128x2048_S1x128x2048 : S128x2048.ShapeCasts S1x128x2048
  packedbf16_S1x128x2048_S1x128x2048_0_0_0 : (Rect.unit (s := S1x128x2048) ![0, 0, 0] S1x128x2048.size inb_S1x128x2048_S1x128x2048_0_0_0).PackedRows (EltTy.packing .bf16)
  reduces_S128x2048_S128 : S128x2048.Reduces [1] S128
  shapeCasts_S128_S128x1 : S128.ShapeCasts S128x1
  concatenates_S128x1_S128x1_S128x2_d1 : Shape.Concatenates [S128x1, S128x1] S128x2 1
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S1x128x2 : S128x2.ShapeCasts S1x128x2
  reducesTo_S64x128x2_S128x2_d0 : S64x128x2.ReducesTo [0] S128x2
  h_S_ : 0 < S_.numel
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  bcast_S128_S128x1_0 : S128.BroadcastsInDim S128x1 (![0] : Fin 1 → Fin S128x1.rank)
  inb_S128x2_S128x1_0_0 : ∀ a, (![0, 0] : Fin 2 → Nat) a + S128x1.size a ≤ S128x2.size a
  h_S128x1 : 0 < S128x1.numel
  shapeCasts_S128x1_S128x1 : S128x1.ShapeCasts S128x1
  inb_S128x2_S128x1_0_1 : ∀ a, (![0, 1] : Fin 2 → Nat) a + S128x1.size a ≤ S128x2.size a
  broadcasts_S128x1_S128x2048 : S128x1.Broadcasts S128x2048
  dot_S128x384_S384x2048_S128x2048_1_0_0_1_n_n_wf : DotDims.WF S128x384 S384x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S64x128x2048.size a
  hwx0_0 : ∀ i : grid0.Coords, EltTy.bits .f32 = 32 ∨ (Rect.block (s := S64x128x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S64x128x2048.size a
  hwx0_2 : ∀ i : grid0.Coords, EltTy.bits .bf16 = 32 ∨ (Rect.block (s := S64x128x2048) S1x128x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2.size a ≤ S64x128x2.size a
  hwx0_3 : ∀ i : grid0.Coords, EltTy.bits .f32 = 32 ∨ (Rect.block (s := S64x128x2) S1x128x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x2048.size a ≤ S64x128x2048.size a
  hwx1_0 : ∀ i : grid1.Coords, EltTy.bits .bf16 = 32 ∨ (Rect.block (s := S64x128x2048) S1x128x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x2048.size a ≤ S64x128x2048.size a
  hwx1_2 : ∀ i : grid1.Coords, EltTy.bits .f32 = 32 ∨ (Rect.block (s := S64x128x2048) S1x128x2048.size (cc1_transform_2 i) (hinb1_2 i)).WholeWords (EltTy.packing .f32)

variable [Facts₀]

def dot_S128x384_S384x2048_S128x2048_1_0_0_1_n_n : DotDims S128x384 S384x2048 S128x2048 where
  lhsContracting := [1]
  rhsContracting := [0]
  lhsNonContracting := [0]
  rhsNonContracting := [1]
  lhsBatch := []
  rhsBatch := []
  wf := dot_S128x384_S384x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x128x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x128x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3_0) S1x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x128x2048 : Shape := ⟨3, ![64, 128, 2048]⟩
abbrev S128x128x3 : Shape := ⟨3, ![128, 128, 3]⟩
abbrev S128 : Shape := ⟨1, ![128]⟩
abbrev S128x3x128 : Shape := ⟨3, ![128, 3, 128]⟩
abbrev S128x384 : Shape := ⟨2, ![128, 384]⟩
abbrev S64x128x2 : Shape := ⟨3, ![64, 128, 2]⟩
abbrev S1x128x2048 : Shape := ⟨3, ![1, 128, 2048]⟩
abbrev S1x128x2 : Shape := ⟨3, ![1, 128, 2]⟩
abbrev S128x2048 : Shape := ⟨2, ![128, 2048]⟩
abbrev S128x1 : Shape := ⟨2, ![128, 1]⟩
abbrev S128x2047 : Shape := ⟨2, ![128, 2047]⟩
abbrev S384x2048 : Shape := ⟨2, ![384, 2048]⟩
abbrev S128x2 : Shape := ⟨2, ![128, 2]⟩
abbrev S_ : Shape := ⟨0, ![]⟩

abbrev nBuf : Space → Nat
  | .hbm => 32
  | .vmem => 11
  | .smem => 0
  | _ => 0

abbrev bufTy : (tb : Table) → Fin (tcTables nBuf tb) → BufTy
  | .hbm, ⟨0, _⟩ => ⟨S64x128x2048, .f32⟩
  | .hbm, ⟨1, _⟩ => ⟨S128x128x3, .f32⟩
  | .hbm, ⟨2, _⟩ => ⟨S128, .f32⟩
  | .hbm, ⟨3, _⟩ => ⟨S128, .f32⟩
  | .hbm, ⟨4, _⟩ => ⟨S128x3x128, .f32⟩
  | .hbm, ⟨5, _⟩ => ⟨S128x384, .f32⟩
  | .hbm, ⟨6, _⟩ => ⟨S64x128x2, .f32⟩
  | .hbm, ⟨7, _⟩ => ⟨S_, .f32⟩
  | .hbm, ⟨8, _⟩ => ⟨S128x2, .f32⟩
  | .hbm, ⟨9, _⟩ => ⟨S128x1, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128x1, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128x1, .f32⟩
  | .hbm, ⟨29, _⟩ => ⟨S128x1, .f32⟩
  | .hbm, ⟨30, _⟩ => ⟨S128x2, .f32⟩
  | .hbm, ⟨31, _⟩ => ⟨S64x128x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x384, .f32⟩
  | .local _ .vmem, ⟨3, _⟩ => ⟨S1x128x2, .f32⟩
  | .local _ .vmem, ⟨4, _⟩ => ⟨S1x128x2, .f32⟩
  | .local _ .vmem, ⟨5, _⟩ => ⟨S1x128x2048, .f32⟩
  | .local _ .vmem, ⟨6, _⟩ => ⟨S1x128x2048, .f32⟩
  | .local _ .vmem, ⟨7, _⟩ => ⟨S128x384, .f32⟩
  | .local _ .vmem, ⟨8, _⟩ => ⟨S128x2, .f32⟩
  | .local _ .vmem, ⟨9, _⟩ => ⟨S1x128x2048, .f32⟩
  | .local _ .vmem, ⟨10, _⟩ => ⟨S1x128x2048, .f32⟩
  | _, _ => ⟨S64x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128x3_S128x3x128_0_2_1 : S128x128x3.Transposes [0, 2, 1] S128x3x128
  shapeCasts_S128x3x128_S128x384 : S128x3x128.ShapeCasts S128x384
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  slices_S128x2048_o0_0_S128x2047 : S128x2048.Slices ![0, 0] S128x2047
  concatenates_S128x1_S128x2047_S128x2048_d1 : Shape.Concatenates [S128x1, S128x2047] S128x2048 1
  slices_S128x2048_o0_1_S128x2047 : S128x2048.Slices ![0, 1] S128x2047
  concatenates_S128x2047_S128x1_S128x2048_d1 : Shape.Concatenates [S128x2047, S128x1] S128x2048 1
  concatenates_S128x2048_S128x2048_S128x2048_S384x2048_d0 : Shape.Concatenates [S128x2048, S128x2048, S128x2048] S384x2048 0
  inb_S128x384_S128x384_0_0 : ∀ a, (![0, 0] : Fin 2 → Nat) a + S128x384.size a ≤ S128x384.size a
  h_S128x384 : 0 < S128x384.numel
  shapeCasts_S128x384_S128x384 : S128x384.ShapeCasts S128x384
  reduces_S128x2048_S128 : S128x2048.Reduces [1] S128
  shapeCasts_S128_S128x1 : S128.ShapeCasts S128x1
  concatenates_S128x1_S128x1_S128x2_d1 : Shape.Concatenates [S128x1, S128x1] S128x2 1
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S1x128x2 : S128x2.ShapeCasts S1x128x2
  reducesTo_S64x128x2_S128x2_d0 : S64x128x2.ReducesTo [0] S128x2
  h_S_ : 0 < S_.numel
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  bcast_S128_S128x1_0 : S128.BroadcastsInDim S128x1 (![0] : Fin 1 → Fin S128x1.rank)
  inb_S128x2_S128x1_0_0 : ∀ a, (![0, 0] : Fin 2 → Nat) a + S128x1.size a ≤ S128x2.size a
  h_S128x1 : 0 < S128x1.numel
  shapeCasts_S128x1_S128x1 : S128x1.ShapeCasts S128x1
  inb_S128x2_S128x1_0_1 : ∀ a, (![0, 1] : Fin 2 → Nat) a + S128x1.size a ≤ S128x2.size a
  broadcasts_S128x1_S128x2048 : S128x1.Broadcasts S128x2048
  shapeCasts_S128x2048_S1x128x2048 : S128x2048.ShapeCasts S1x128x2048
  dot_S128x384_S384x2048_S128x2048_1_0_0_1_n_n_wf : DotDims.WF S128x384 S384x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S64x128x2048.size a
  hwx0_0 : ∀ i : grid0.Coords, EltTy.bits .f32 = 32 ∨ (Rect.block (s := S64x128x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S64x128x2.size a
  hwx0_2 : ∀ i : grid0.Coords, EltTy.bits .f32 = 32 ∨ (Rect.block (s := S64x128x2) S1x128x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x2048.size a ≤ S64x128x2048.size a
  hwx1_0 : ∀ i : grid1.Coords, EltTy.bits .f32 = 32 ∨ (Rect.block (s := S64x128x2048) S1x128x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S128x384.size a
  hwx1_1 : ∀ i : grid1.Coords, EltTy.bits .f32 = 32 ∨ (Rect.block (s := S128x384) S128x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x2048.size a ≤ S64x128x2048.size a
  hwx1_3 : ∀ i : grid1.Coords, EltTy.bits .f32 = 32 ∨ (Rect.block (s := S64x128x2048) S1x128x2048.size (cc1_transform_3 i) (hinb1_3 i)).WholeWords (EltTy.packing .f32)

variable [Facts₀]

def dot_S128x384_S384x2048_S128x2048_1_0_0_1_n_n : DotDims S128x384 S384x2048 S128x2048 where
  lhsContracting := [1]
  rhsContracting := [0]
  lhsNonContracting := [0]
  rhsNonContracting := [1]
  lhsBatch := []
  rhsBatch := []
  wf := dot_S128x384_S384x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.RunK.lean ====
/-
  The run of `KernelIdeal`'s @main with its RESULT array named.

  @main is four segments: a stretch of host operations, the first kernel region, a second stretch of host
  operations, the second kernel region. The contents of every buffer at the four segment boundaries are a fold
  from the launch memory; the last boundary's contents are `Gen.W4`. Here the program is run over those segments
  once more, and the final memory is read at the result array as well as at the four arguments: every weakly
  fair execution terminates, nothing faults, the result array ends at the last boundary's contents and the
  arguments end as launched. What the last boundary holds at the result array is the second region's output
  window after all its write-backs.
-/
import proofs.«138602_g2000005580702148_pallasbulk_207_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last segment
    boundary's contents, and the four argument arrays end as launched. -/
theorem run_last : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunV

end
-- ==== Proof.LibSlabs.lean ====
/-
  An array of shape [n, a, b] as a STACK of n slabs of shape [1, a, b] along its leading axis.

  A kernel whose grid walks the leading axis one step per point, with blocks [1, a, b], reads slab `t` of each
  blocked input at point `t` and writes slab `t` of each blocked output. This file names the two directions —
  `slab A t`, slab `t` of an array, and `stack f`, the array whose slab `t` is `f t` — and proves that they are
  inverse to one another. Element `y` of slab `t` sits in the array at `place t y`: leading coordinate `t`, the other
  two coordinates those of `y`; an array index `i` lies in slab `i 0` at `inside i`.
-/
import Idealize.ShloMosaic.Lib.ValueIdx

namespace Slabs

open Idealize.ShloMosaic Idealize.ShloMosaic.ValueIdx

variable {α : Type} {n a b : Nat}

/-- Where element `y` of slab `t` sits in the array. -/
def place (t : Fin n) (y : (⟨3, ![1, a, b]⟩ : Shape).Idx) : (⟨3, ![n, a, b]⟩ : Shape).Idx :=
  ix3 (n0 := n) (n1 := a) (n2 := b) t (y 1) (y 2)

/-- An array index as an index of its slab: the leading coordinate forgotten. -/
def inside (i : (⟨3, ![n, a, b]⟩ : Shape).Idx) : (⟨3, ![1, a, b]⟩ : Shape).Idx :=
  ix3 (n0 := 1) (n1 := a) (n2 := b) 0 (i 1) (i 2)

/-- Slab `t` of an array. -/
def slab (A : (⟨3, ![n, a, b]⟩ : Shape).Idx → α) (t : Fin n) : (⟨3, ![1, a, b]⟩ : Shape).Idx → α :=
  fun y => A (place t y)

/-- The array whose slab `t` is `f t`. -/
def stack (f : Fin n → (⟨3, ![1, a, b]⟩ : Shape).Idx → α) : (⟨3, ![n, a, b]⟩ : Shape).Idx → α :=
  fun i => f (i 0) (inside i)

/-- A slab's leading axis has one position. -/
theorem lead_eq_zero (y : (⟨3, ![1, a, b]⟩ : Shape).Idx) : ((y 0 : Fin 1) : Nat) = 0 := by
  have h : ((y 0 : Fin 1) : Nat) < 1 := (y 0 : Fin 1).isLt
  omega

/-- The element placed at `place t y` is element `y` of its slab. -/
theorem inside_place (t : Fin n) (y : (⟨3, ![1, a, b]⟩ : Shape).Idx) : inside (place t y) = y := by
  funext d
  match d with
  | ⟨0, _⟩ => exact Fin.ext (lead_eq_zero y).symm
  | ⟨1, _⟩ => rfl
  | ⟨2, _⟩ => rfl

/-- and it lies in slab `t`. -/
theorem place_lead (t : Fin n) (y : (⟨3, ![1, a, b]⟩ : Shape).Idx) : (place t y) 0 = t := rfl

/-- Every array index is the place of its slab index in its slab. -/
theorem place_inside (i : (⟨3, ![n, a, b]⟩ : Shape).Idx) : place (i 0) (inside i) = i :=
  (eq_ix3 i).symm

/-- Slab `t` of a stack is the `t`-th slab stacked. -/
theorem slab_stack (f : Fin n → (⟨3, ![1, a, b]⟩ : Shape).Idx → α) (t : Fin n) : slab (stack f) t = f t :=
  funext fun y => by
    show f ((place t y) 0) (inside (place t y)) = f t y
    rw [inside_place, place_lead]

/-- An array is the stack of its slabs. -/
theorem stack_slab (A : (⟨3, ![n, a, b]⟩ : Shape).Idx → α) : stack (slab A) = A :=
  funext fun i => congrArg A (place_inside i)

/-- Two stacks of equal slabs are equal. -/
theorem stack_congr {f g : Fin n → (⟨3, ![1, a, b]⟩ : Shape).Idx → α} (h : ∀ t, f t = g t) : stack f = stack g :=
  congrArg stack (funext h)

end Slabs
-- ==== Proof.BlocksK.lean ====
/-
  What each window of `KernelIdeal`'s two kernel regions reads and writes, for ANY contents `V` of the buffers when the
  region is entered, and what each output array holds when the region is left.

  Both grids have 64 points and walk the leading axis of the activations: at point `t` a window whose blocks are
  [1, 128, b] holds SLAB `t` of its array (`Slabs.slab`), and a window whose block is its whole array holds that
  array. The body stores each output's payload through the whole-block rectangle, so the staging buffer after the
  body is that payload of the blocks read. Point `t` writes back slab `t` of the output array, the 64 slabs cover
  it, and so after the region each output array is the STACK over `t` of the body's payload at slab `t` of the
  inputs (`Slabs.stack`), by `Dat.arrAt_eq_of_cover`.
-/
import proofs.«138602_g2000005580702148_pallasbulk_207_2_alg».proof.Proof.Gen.KernelIdeal.Frame
import proofs.«138602_g2000005580702148_pallasbulk_207_2_alg».proof.Proof.LibSlabs
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Slabs

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- A point of the first grid as a slab number. -/
def pt0 (t : Fin cfg0.N) : Fin 64 := ⟨t.val, lt_of_lt_of_eq t.isLt N_0⟩
/-- A point of the second grid as a slab number. -/
def pt1 (t : Fin cfg1.N) : Fin 64 := ⟨t.val, lt_of_lt_of_eq t.isLt N_1⟩

/-- Window 0 of region 0 moves with the grid along the leading axis only (decided over the 64 points). -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Element `y` of its block at point `t` is element `y` of slab `t` of the array. -/
theorem emb0_0 (t : Fin cfg0.N) (y : S1x128x2048.Idx) :
    ((cfg0.win 0).blk t).view.emb y = place (n := 64) (a := 128) (b := 2048) (pt0 t) y := by
  obtain ⟨e0, e1, e2⟩ := idx0_0 t
  have h0 := lead_eq_zero y
  funext d; apply Fin.ext
  match d with
  | ⟨0, _⟩ => show win0_0.index t (0 : Fin 3) * 1 + 1 * (y 0).val = t.val; omega
  | ⟨1, _⟩ => show win0_0.index t (1 : Fin 3) * 128 + 1 * (y 1).val = (y 1).val; omega
  | ⟨2, _⟩ => show win0_0.index t (2 : Fin 3) * 2048 + 1 * (y 2).val = (y 2).val; omega

/-- Input window 0 of region 0 holds slab `t` of its array at point `t`. -/
theorem in0_0 (c : Dev nD) (t : Fin cfg0.N) :
    iblk0 V c 0 t = slab (n := 64) (a := 128) (b := 2048) (V c main_arg0) (pt0 t) := by
  funext y
  show V c main_arg0 (((cfg0.win 0).blk t).view.emb y) = V c main_arg0 (place (pt0 t) y)
  rw [emb0_0 t y]

/-- Window 1 of region 0 stays at block 0 on every axis (decided over the 64 points). -/
theorem idx0_1 : ∀ t : Fin cfg0.N, win0_1.index t (0 : Fin 2) = 0 ∧ win0_1.index t (1 : Fin 2) = 0 :=
  (by decide +kernel : ∀ t : Fin grid0.N, _)

/-- Its block is the whole array: element `y` of the block is element `y` of the array. -/
theorem emb0_1 (t : Fin cfg0.N) (y : S128x384.Idx) : ((cfg0.win 1).blk t).view.emb y = y := by
  obtain ⟨e0, e1⟩ := idx0_1 t
  funext d; apply Fin.ext
  match d with
  | ⟨0, _⟩ => show win0_1.index t (0 : Fin 2) * 128 + 1 * (y 0).val = (y 0).val; omega
  | ⟨1, _⟩ => show win0_1.index t (1 : Fin 2) * 384 + 1 * (y 1).val = (y 1).val; omega

/-- Input window 1 of region 0 holds its whole array at every point. -/
theorem in0_1 (c : Dev nD) (t : Fin cfg0.N) : iblk0 V c 1 t = V c main_v2 := by
  funext y
  show V c main_v2 (((cfg0.win 1).blk t).view.emb y) = V c main_v2 y
  rw [emb0_1 t y]

/-- Window 2 of region 0 moves with the grid along the leading axis only (decided over the 64 points). -/
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Element `y` of its block at point `t` is element `y` of slab `t` of the array. -/
theorem emb0_2 (t : Fin cfg0.N) (y : S1x128x2048.Idx) :
    ((cfg0.win 2).blk t).view.emb y = place (n := 64) (a := 128) (b := 2048) (pt0 t) y := by
  obtain ⟨e0, e1, e2⟩ := idx0_2 t
  have h0 := lead_eq_zero y
  funext d; apply Fin.ext
  match d with
  | ⟨0, _⟩ => show win0_2.index t (0 : Fin 3) * 1 + 1 * (y 0).val = t.val; omega
  | ⟨1, _⟩ => show win0_2.index t (1 : Fin 3) * 128 + 1 * (y 1).val = (y 1).val; omega
  | ⟨2, _⟩ => show win0_2.index t (2 : Fin 3) * 2048 + 1 * (y 2).val = (y 2).val; omega

/-- Window 3 of region 0 moves with the grid along the leading axis only (decided over the 64 points). -/
theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Element `y` of its block at point `t` is element `y` of slab `t` of the array. -/
theorem emb0_3 (t : Fin cfg0.N) (y : S1x128x2.Idx) :
    ((cfg0.win 3).blk t).view.emb y = place (n := 64) (a := 128) (b := 2) (pt0 t) y := by
  obtain ⟨e0, e1, e2⟩ := idx0_3 t
  have h0 := lead_eq_zero y
  funext d; apply Fin.ext
  match d with
  | ⟨0, _⟩ => show win0_3.index t (0 : Fin 3) * 1 + 1 * (y 0).val = t.val; omega
  | ⟨1, _⟩ => show win0_3.index t (1 : Fin 3) * 128 + 1 * (y 1).val = (y 1).val; omega
  | ⟨2, _⟩ => show win0_3.index t (2 : Fin 3) * 2 + 1 * (y 2).val = (y 2).val; omega

/-- Window 0 of region 1 moves with the grid along the leading axis only (decided over the 64 points). -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)

/-- Element `y` of its block at point `t` is element `y` of slab `t` of the array. -/
theorem emb1_0 (t : Fin cfg1.N) (y : S1x128x2048.Idx) :
    ((cfg1.win 0).blk t).view.emb y = place (n := 64) (a := 128) (b := 2048) (pt1 t) y := by
  obtain ⟨e0, e1, e2⟩ := idx1_0 t
  have h0 := lead_eq_zero y
  funext d; apply Fin.ext
  match d with
  | ⟨0, _⟩ => show win1_0.index t (0 : Fin 3) * 1 + 1 * (y 0).val = t.val; omega
  | ⟨1, _⟩ => show win1_0.index t (1 : Fin 3) * 128 + 1 * (y 1).val = (y 1).val; omega
  | ⟨2, _⟩ => show win1_0.index t (2 : Fin 3) * 2048 + 1 * (y 2).val = (y 2).val; omega

/-- Input window 0 of region 1 holds slab `t` of its array at point `t`. -/
theorem in1_0 (c : Dev nD) (t : Fin cfg1.N) :
    iblk1 V c 0 t = slab (n := 64) (a := 128) (b := 2048) (V c main_v3_0) (pt1 t) := by
  funext y
  show V c main_v3_0 (((cfg1.win 0).blk t).view.emb y) = V c main_v3_0 (place (pt1 t) y)
  rw [emb1_0 t y]

/-- Window 1 of region 1 stays at block 0 on every axis (decided over the 64 points). -/
theorem idx1_1 : ∀ t : Fin cfg1.N, win1_1.index t (0 : Fin 2) = 0 ∧ win1_1.index t (1 : Fin 2) = 0 :=
  (by decide +kernel : ∀ t : Fin grid1.N, _)

/-- Its block is the whole array: element `y` of the block is element `y` of the array. -/
theorem emb1_1 (t : Fin cfg1.N) (y : S128x2.Idx) : ((cfg1.win 1).blk t).view.emb y = y := by
  obtain ⟨e0, e1⟩ := idx1_1 t
  funext d; apply Fin.ext
  match d with
  | ⟨0, _⟩ => show win1_1.index t (0 : Fin 2) * 128 + 1 * (y 0).val = (y 0).val; omega
  | ⟨1, _⟩ => show win1_1.index t (1 : Fin 2) * 2 + 1 * (y 1).val = (y 1).val; omega

/-- Input window 1 of region 1 holds its whole array at every point. -/
theorem in1_1 (c : Dev nD) (t : Fin cfg1.N) : iblk1 V c 1 t = V c main_v23 := by
  funext y
  show V c main_v23 (((cfg1.win 1).blk t).view.emb y) = V c main_v23 y
  rw [emb1_1 t y]

/-- Window 2 of region 1 moves with the grid along the leading axis only (decided over the 64 points). -/
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)

/-- Element `y` of its block at point `t` is element `y` of slab `t` of the array. -/
theorem emb1_2 (t : Fin cfg1.N) (y : S1x128x2048.Idx) :
    ((cfg1.win 2).blk t).view.emb y = place (n := 64) (a := 128) (b := 2048) (pt1 t) y := by
  obtain ⟨e0, e1, e2⟩ := idx1_2 t
  have h0 := lead_eq_zero y
  funext d; apply Fin.ext
  match d with
  | ⟨0, _⟩ => show win1_2.index t (0 : Fin 3) * 1 + 1 * (y 0).val = t.val; omega
  | ⟨1, _⟩ => show win1_2.index t (1 : Fin 3) * 128 + 1 * (y 1).val = (y 1).val; omega
  | ⟨2, _⟩ => show win1_2.index t (2 : Fin 3) * 2048 + 1 * (y 2).val = (y 2).val; omega

/-- The body of region 0 leaves in output window 2's buffer its payload of the blocks read: one store through
    the whole-block rectangle. -/
theorem body0_2 (x0 : Vec F S1x128x2048 .f32) (x1 : Vec F S128x384 .bf16) :
    out0_2 x0 x1 = k0_pay2 x0 x1 := by
  unfold out0_2
  rw [View.canon_unit_zero zeros3]
  simp only [View.ld_unit_zero (S := S1x128x2048) zeros3, View.ld_unit_zero (S := S128x384) zeros2]

/-- What point `t` writes back through output window 2 of region 0 is slab `t` of the stack of payloads. -/
theorem flushed0_2 (c : Dev nD) (t : Fin cfg0.N) :
    (dat0 V c).flushed 2 t = ((cfg0.win 2).blk t).view.read (Elt F)
      (stack (n := 64) (a := 128) (b := 2048) fun s => k0_pay2 (slab (n := 64) (a := 128) (b := 2048) (V c main_arg0) s) (V c main_v2)) := by
  show (cfg0.win 2).cut (grid0.coords t) ((dat0 V c).after 2 t) = _
  rw [after0_2, body0_2, in0_0, in0_1]
  funext y
  show _ = stack (n := 64) (a := 128) (b := 2048) (fun s => k0_pay2 (slab (n := 64) (a := 128) (b := 2048) (V c main_arg0) s) (V c main_v2)) (((cfg0.win 2).blk t).view.emb y)
  rw [emb0_2 t y]
  show _ = (fun s => k0_pay2 (slab (n := 64) (a := 128) (b := 2048) (V c main_arg0) s) (V c main_v2)) ((place (pt0 t) y) 0) (inside (place (pt0 t) y))
  rw [inside_place]
  rfl

/-- An index of the array lies in point `t`'s block iff each coordinate lies in the block's range on its axis. -/
theorem mem0_2 (t : Fin cfg0.N) (i : S64x128x2048.Idx) :
    i ∈ ((cfg0.win 2).blk t).view.set ↔ ∀ a : Fin 3, win0_2.index t a * S1x128x2048.size a ≤ (i a).val ∧ (i a).val < win0_2.index t a * S1x128x2048.size a + S1x128x2048.size a := by
  show i ∈ ((View.whole main_v3_0).slice (win0_2.rect t)).set ↔ _
  rw [View.set_slice_whole, Rect.mem_set_unit]
  exact Iff.rfl

/-- Every index of the array lies in the block of the point its leading coordinate names. -/
theorem cover0_2' (i : S64x128x2048.Idx) :
    ∃ t : Fin cfg0.N, (cfg0.win 2).flush t = true ∧ i ∈ ((cfg0.win 2).blk t).view.set := by
  have hi0 : (i 0).val < 64 := (i 0).isLt
  have hi1 : (i 1).val < 128 := (i 1).isLt
  have hi2 : (i 2).val < 2048 := (i 2).isLt
  have ht : (i 0).val < cfg0.N := lt_of_lt_of_eq hi0 N_0.symm
  obtain ⟨e0, e1, e2⟩ := idx0_2 ⟨(i 0).val, ht⟩
  refine ⟨⟨(i 0).val, ht⟩, flush0_2 _, ?_⟩
  rw [mem0_2]
  intro a
  match a with
  | ⟨0, _⟩ => show win0_2.index ⟨(i 0).val, ht⟩ (0 : Fin 3) * 1 ≤ (i 0).val ∧ (i 0).val < win0_2.index ⟨(i 0).val, ht⟩ (0 : Fin 3) * 1 + 1; rw [e0]; show (i 0).val * 1 ≤ (i 0).val ∧ (i 0).val < (i 0).val * 1 + 1; omega
  | ⟨1, _⟩ => show win0_2.index ⟨(i 0).val, ht⟩ (1 : Fin 3) * 128 ≤ (i 1).val ∧ (i 1).val < win0_2.index ⟨(i 0).val, ht⟩ (1 : Fin 3) * 128 + 128; omega
  | ⟨2, _⟩ => show win0_2.index ⟨(i 0).val, ht⟩ (2 : Fin 3) * 2048 ≤ (i 2).val ∧ (i 2).val < win0_2.index ⟨(i 0).val, ht⟩ (2 : Fin 3) * 2048 + 2048; omega

/-- AFTER REGION 0 its output array of window 2 is the stack, over the 64 slabs, of the body's payload at that slab
    of the blocked inputs and at the whole-array inputs. -/
theorem arr0_2 (c : Dev nD) :
    (dat0 V c).arrAt 2 cfg0.N = stack (n := 64) (a := 128) (b := 2048) fun s => k0_pay2 (slab (n := 64) (a := 128) (b := 2048) (V c main_arg0) s) (V c main_v2) :=
  (dat0 V c).arrAt_eq_of_cover 2 _ (fun t _ => flushed0_2 V c t) cover0_2'

/-- The body of region 0 leaves in output window 3's buffer its payload of the blocks read: one store through
    the whole-block rectangle. -/
theorem body0_3 (x0 : Vec F S1x128x2048 .f32) (x1 : Vec F S128x384 .bf16) :
    out0_3 x0 x1 = k0_pay3 x0 x1 := by
  unfold out0_3
  rw [View.canon_unit_zero zeros3]
  simp only [View.ld_unit_zero (S := S1x128x2048) zeros3, View.ld_unit_zero (S := S128x384) zeros2]

/-- What point `t` writes back through output window 3 of region 0 is slab `t` of the stack of payloads. -/
theorem flushed0_3 (c : Dev nD) (t : Fin cfg0.N) :
    (dat0 V c).flushed 3 t = ((cfg0.win 3).blk t).view.read (Elt F)
      (stack (n := 64) (a := 128) (b := 2) fun s => k0_pay3 (slab (n := 64) (a := 128) (b := 2048) (V c main_arg0) s) (V c main_v2)) := by
  show (cfg0.win 3).cut (grid0.coords t) ((dat0 V c).after 3 t) = _
  rw [after0_3, body0_3, in0_0, in0_1]
  funext y
  show _ = stack (n := 64) (a := 128) (b := 2) (fun s => k0_pay3 (slab (n := 64) (a := 128) (b := 2048) (V c main_arg0) s) (V c main_v2)) (((cfg0.win 3).blk t).view.emb y)
  rw [emb0_3 t y]
  show _ = (fun s => k0_pay3 (slab (n := 64) (a := 128) (b := 2048) (V c main_arg0) s) (V c main_v2)) ((place (pt0 t) y) 0) (inside (place (pt0 t) y))
  rw [inside_place]
  rfl

/-- An index of the array lies in point `t`'s block iff each coordinate lies in the block's range on its axis. -/
theorem mem0_3 (t : Fin cfg0.N) (i : S64x128x2.Idx) :
    i ∈ ((cfg0.win 3).blk t).view.set ↔ ∀ a : Fin 3, win0_3.index t a * S1x128x2.size a ≤ (i a).val ∧ (i a).val < win0_3.index t a * S1x128x2.size a + S1x128x2.size a := by
  show i ∈ ((View.whole main_v3_1).slice (win0_3.rect t)).set ↔ _
  rw [View.set_slice_whole, Rect.mem_set_unit]
  exact Iff.rfl

/-- Every index of the array lies in the block of the point its leading coordinate names. -/
theorem cover0_3' (i : S64x128x2.Idx) :
    ∃ t : Fin cfg0.N, (cfg0.win 3).flush t = true ∧ i ∈ ((cfg0.win 3).blk t).view.set := by
  have hi0 : (i 0).val < 64 := (i 0).isLt
  have hi1 : (i 1).val < 128 := (i 1).isLt
  have hi2 : (i 2).val < 2 := (i 2).isLt
  have ht : (i 0).val < cfg0.N := lt_of_lt_of_eq hi0 N_0.symm
  obtain ⟨e0, e1, e2⟩ := idx0_3 ⟨(i 0).val, ht⟩
  refine ⟨⟨(i 0).val, ht⟩, flush0_3 _, ?_⟩
  rw [mem0_3]
  intro a
  match a with
  | ⟨0, _⟩ => show win0_3.index ⟨(i 0).val, ht⟩ (0 : Fin 3) * 1 ≤ (i 0).val ∧ (i 0).val < win0_3.index ⟨(i 0).val, ht⟩ (0 : Fin 3) * 1 + 1; rw [e0]; show (i 0).val * 1 ≤ (i 0).val ∧ (i 0).val < (i 0).val * 1 + 1; omega
  | ⟨1, _⟩ => show win0_3.index ⟨(i 0).val, ht⟩ (1 : Fin 3) * 128 ≤ (i 1).val ∧ (i 1).val < win0_3.index ⟨(i 0).val, ht⟩ (1 : Fin 3) * 128 + 128; omega
  | ⟨2, _⟩ => show win0_3.index ⟨(i 0).val, ht⟩ (2 : Fin 3) * 2 ≤ (i 2).val ∧ (i 2).val < win0_3.index ⟨(i 0).val, ht⟩ (2 : Fin 3) * 2 + 2; omega

/-- AFTER REGION 0 its output array of window 3 is the stack, over the 64 slabs, of the body's payload at that slab
    of the blocked inputs and at the whole-array inputs. -/
theorem arr0_3 (c : Dev nD) :
    (dat0 V c).arrAt 3 cfg0.N = stack (n := 64) (a := 128) (b := 2) fun s => k0_pay3 (slab (n := 64) (a := 128) (b := 2048) (V c main_arg0) s) (V c main_v2) :=
  (dat0 V c).arrAt_eq_of_cover 3 _ (fun t _ => flushed0_3 V c t) cover0_3'

/-- The body of region 1 leaves in output window 2's buffer its payload of the blocks read: one store through
    the whole-block rectangle. -/
theorem body1_2 (x0 : Vec F S1x128x2048 .bf16) (x1 : Vec F S128x2 .f32) :
    out1_2 x0 x1 = k1_pay1 x0 (View.ld x1 r1_1) (View.ld x1 r1_2) := by
  unfold out1_2
  rw [View.canon_unit_zero zeros3]
  simp only [View.ld_unit_zero (S := S1x128x2048) zeros3]

/-- What point `t` writes back through output window 2 of region 1 is slab `t` of the stack of payloads. -/
theorem flushed1_2 (c : Dev nD) (t : Fin cfg1.N) :
    (dat1 V c).flushed 2 t = ((cfg1.win 2).blk t).view.read (Elt F)
      (stack (n := 64) (a := 128) (b := 2048) fun s => k1_pay1 (slab (n := 64) (a := 128) (b := 2048) (V c main_v3_0) s) (View.ld (V c main_v23) r1_1) (View.ld (V c main_v23) r1_2)) := by
  show (cfg1.win 2).cut (grid1.coords t) ((dat1 V c).after 2 t) = _
  rw [after1_2, body1_2, in1_0, in1_1]
  funext y
  show _ = stack (n := 64) (a := 128) (b := 2048) (fun s => k1_pay1 (slab (n := 64) (a := 128) (b := 2048) (V c main_v3_0) s) (View.ld (V c main_v23) r1_1) (View.ld (V c main_v23) r1_2)) (((cfg1.win 2).blk t).view.emb y)
  rw [emb1_2 t y]
  show _ = (fun s => k1_pay1 (slab (n := 64) (a := 128) (b := 2048) (V c main_v3_0) s) (View.ld (V c main_v23) r1_1) (View.ld (V c main_v23) r1_2)) ((place (pt1 t) y) 0) (inside (place (pt1 t) y))
  rw [inside_place]
  rfl

/-- An index of the array lies in point `t`'s block iff each coordinate lies in the block's range on its axis. -/
theorem mem1_2 (t : Fin cfg1.N) (i : S64x128x2048.Idx) :
    i ∈ ((cfg1.win 2).blk t).view.set ↔ ∀ a : Fin 3, win1_2.index t a * S1x128x2048.size a ≤ (i a).val ∧ (i a).val < win1_2.index t a * S1x128x2048.size a + S1x128x2048.size a := by
  show i ∈ ((View.whole main_v24).slice (win1_2.rect t)).set ↔ _
  rw [View.set_slice_whole, Rect.mem_set_unit]
  exact Iff.rfl

/-- Every index of the array lies in the block of the point its leading coordinate names. -/
theorem cover1_2' (i : S64x128x2048.Idx) :
    ∃ t : Fin cfg1.N, (cfg1.win 2).flush t = true ∧ i ∈ ((cfg1.win 2).blk t).view.set := by
  have hi0 : (i 0).val < 64 := (i 0).isLt
  have hi1 : (i 1).val < 128 := (i 1).isLt
  have hi2 : (i 2).val < 2048 := (i 2).isLt
  have ht : (i 0).val < cfg1.N := lt_of_lt_of_eq hi0 N_1.symm
  obtain ⟨e0, e1, e2⟩ := idx1_2 ⟨(i 0).val, ht⟩
  refine ⟨⟨(i 0).val, ht⟩, flush1_2 _, ?_⟩
  rw [mem1_2]
  intro a
  match a with
  | ⟨0, _⟩ => show win1_2.index ⟨(i 0).val, ht⟩ (0 : Fin 3) * 1 ≤ (i 0).val ∧ (i 0).val < win1_2.index ⟨(i 0).val, ht⟩ (0 : Fin 3) * 1 + 1; rw [e0]; show (i 0).val * 1 ≤ (i 0).val ∧ (i 0).val < (i 0).val * 1 + 1; omega
  | ⟨1, _⟩ => show win1_2.index ⟨(i 0).val, ht⟩ (1 : Fin 3) * 128 ≤ (i 1).val ∧ (i 1).val < win1_2.index ⟨(i 0).val, ht⟩ (1 : Fin 3) * 128 + 128; omega
  | ⟨2, _⟩ => show win1_2.index ⟨(i 0).val, ht⟩ (2 : Fin 3) * 2048 ≤ (i 2).val ∧ (i 2).val < win1_2.index ⟨(i 0).val, ht⟩ (2 : Fin 3) * 2048 + 2048; omega

/-- AFTER REGION 1 its output array of window 2 is the stack, over the 64 slabs, of the body's payload at that slab
    of the blocked inputs and at the whole-array inputs. -/
theorem arr1_2 (c : Dev nD) :
    (dat1 V c).arrAt 2 cfg1.N = stack (n := 64) (a := 128) (b := 2048) fun s => k1_pay1 (slab (n := 64) (a := 128) (b := 2048) (V c main_v3_0) s) (View.ld (V c main_v23) r1_1) (View.ld (V c main_v23) r1_2) :=
  (dat1 V c).arrAt_eq_of_cover 2 _ (fun t _ => flushed1_2 V c t) cover1_2'

end Cert.KernelIdeal.Blocks

end
-- ==== Proof.Spec.lean ====
/-
  The host arithmetic the two programs share, each piece as ONE function of its inputs.

  Both programs lay the convolution weight out as a matrix before the first kernel call, and between the two kernel
  calls both fold the batch-norm statistics into a per-channel scale and shift:

  * `weightMatrix w`: the weight [out, in, tap] transposed to [out, tap, in] and read as the matrix [out, 3·in]
    whose column `tap·128 + in` holds `w[out, in, tap]` (the three taps side by side);
  * `bnFold P γ β`: from the per-batch partial sums `P[n, ch, 0]` (the sum of the convolution over a row) and
    `P[n, ch, 1]` (the sum of its squares), the totals over the 64 batches, the mean `μ = Σ₀ · 2⁻¹⁷` and the mean of
    squares `Σ₁ · 2⁻¹⁷` (2⁻¹⁷ = 1/(64·2048), an exact power of two), the biased variance `σ² = Σ₁ · 2⁻¹⁷ − μ²`, the
    scale `γ · rsqrt(σ² + ε)` and the shift `β − μ · scale`, packed as the two columns of a [128, 2] matrix.

  Every operation is the library's own (the same constructors the printed programs use), so each program's host
  stretch IS this function of the buffers it reads, by computation; the float literals stay as words and are never
  evaluated.
-/
import Idealize.ShloMosaic.PureOps

noncomputable section

namespace ConvBn

open Idealize.ShloMosaic

/-- The convolution weight [out, in, tap], -/
abbrev Wgt : Shape := ⟨3, ![128, 128, 3]⟩
/-- transposed [out, tap, in], -/
abbrev WgtT : Shape := ⟨3, ![128, 3, 128]⟩
/-- and as a matrix [out, 3·in]. -/
abbrev WMat : Shape := ⟨2, ![128, 384]⟩
/-- The partial statistics [batch, channel, {sum, sum of squares}], -/
abbrev Part : Shape := ⟨3, ![64, 128, 2]⟩
/-- their totals, and the packed [scale, shift], [channel, 2]; -/
abbrev Pair : Shape := ⟨2, ![128, 2]⟩
/-- one column of those; -/
abbrev Col : Shape := ⟨2, ![128, 1]⟩
/-- a per-channel vector; -/
abbrev Chan : Shape := ⟨1, ![128]⟩
/-- a scalar. -/
abbrev Sc : Shape := ⟨0, ![]⟩

theorem wgt_transposes : Wgt.Transposes [0, 2, 1] WgtT := by decide
theorem wgt_casts : WgtT.ShapeCasts WMat := by decide
theorem part_reduces : Part.ReducesTo [0] Pair := by decide
theorem sc_pos : 0 < Sc.numel := by decide
theorem col0 : Pair.Slices ![0, 0] Col := by decide
theorem col1 : Pair.Slices ![0, 1] Col := by decide
theorem col_casts : Col.ShapeCasts Chan := by decide
theorem sc_bcast : Sc.BroadcastsInDim Chan (![] : Fin 0 → Fin Chan.rank) := by decide
theorem chan_bcast : Chan.BroadcastsInDim Col (![0] : Fin 1 → Fin Col.rank) := by decide
theorem cols_concat : Shape.Concatenates [Col, Col] Pair 1 := by decide

variable {F : FTy → Type} [FloatOps F]

/-- The weight as the matrix the kernels contract with. -/
def weightMatrix (w : FVec F Wgt .f32) : FVec F WMat .f32 :=
  shapeCast WMat (transpose WgtT [0, 2, 1] w wgt_transposes) wgt_casts

/-- The totals over the batches of the two partial statistics. -/
def totals (P : FVec F Part .f32) : FVec F Pair .f32 :=
  Host.reduceAdd P (constant Sc .f32 0x00000000#32) part_reduces sc_pos

/-- A column of the totals times 2⁻¹⁷. -/
def scaled (T : FVec F Pair .f32) (k : Fin 2 → Nat) (h : Pair.Slices k Col) : FVec F Chan .f32 :=
  mulf (shapeCast Chan (extractStridedSlice Col k T h) col_casts)
    (broadcastInDim Chan ![] sc_bcast (constant Sc .f32 0x37000000#32))

/-- The per-channel scale `γ · rsqrt(σ² + ε)`, with `σ² = Σ₁·2⁻¹⁷ − μ·μ`. -/
def scale (P : FVec F Part .f32) (γ : FVec F Chan .f32) : FVec F Chan .f32 :=
  mulf γ (Host.rsqrt (addf
    (subf (scaled (totals P) ![0, 1] col1) (mulf (scaled (totals P) ![0, 0] col0) (scaled (totals P) ![0, 0] col0)))
    (broadcastInDim Chan ![] sc_bcast (constant Sc .f32 0x3727C5AC#32))))

/-- The per-channel shift `β − μ · scale`. -/
def shift (P : FVec F Part .f32) (γ β : FVec F Chan .f32) : FVec F Chan .f32 :=
  subf β (mulf (scaled (totals P) ![0, 0] col0) (scale P γ))

/-- Scale and shift packed as the two columns of a [channel, 2] matrix. -/
def bnFold (P : FVec F Part .f32) (γ β : FVec F Chan .f32) : FVec F Pair .f32 :=
  concatenate Pair 1 [⟨Col, broadcastInDim Col ![0] chan_bcast (scale P γ)⟩, ⟨Col, broadcastInDim Col ![0] chan_bcast (shift P γ β)⟩] cols_concat

/-- Two columns joined side by side depend only on the columns. -/
theorem pair_congr {a a' b b' : FVec F Col .f32} (h h' : Shape.Concatenates [Col, Col] Pair 1) (ha : a = a') (hb : b = b') :
    concatenate Pair 1 [⟨Col, a⟩, ⟨Col, b⟩] h = concatenate Pair 1 [⟨Col, a'⟩, ⟨Col, b'⟩] h' := by
  subst ha hb; rfl

end ConvBn

end
-- ==== Proof.ValueK.lean ====
/-
  What `KernelIdeal`'s result array holds after the run, as ONE function of the four argument arrays.

  Read forward through @main's four segments. The first host stretch lays the weight out as a matrix and changes
  its format. The first kernel region writes, slab by slab, the convolution of slab `s` of the input with that
  matrix (in the narrower format) and the row sums of the convolution and of its square. The second host stretch
  folds the partial sums into the packed scale and shift (`ConvBn.bnFold`) and leaves the stored convolution alone.
  The second kernel region reads slab `s` of the STORED convolution and the two columns of scale and shift, and
  writes slab `s` of the result. So the result is the stack over `s` of the second payload at the first payload of
  slab `s` of the input: `result`.
-/
import proofs.«138602_g2000005580702148_pallasbulk_207_2_alg».proof.Proof.RunK
import proofs.«138602_g2000005580702148_pallasbulk_207_2_alg».proof.Proof.BlocksK
import proofs.«138602_g2000005580702148_pallasbulk_207_2_alg».proof.Proof.Spec
import Idealize.ShloMosaic.Lib.StableHlo.Run

set_option maxRecDepth 16384

noncomputable section

namespace Cert.KernelIdeal.ConvValue

open Idealize.ShloMosaic Idealize.ShloMosaic.TcCoe Idealize.ShloMosaic.Tactic Idealize.ShloMosaic.StableHlo
open Idealize.SL.Sem
open Cert.KernelIdeal Cert.KernelIdeal.Gen Cert.KernelIdeal.Blocks Slabs ConvBn

variable {F : FTy → Type} [FloatOps F]

/-- The weight matrix in the kernel's operand format. -/
def weights (w : FVec F S128x128x3 .f32) : FVec F S128x384 .bf16 :=
  truncf .bf16 (weightMatrix w) bitsLt_bf16_f32

/-- The partial statistics the first region leaves: slab `s` is the statistics payload at slab `s` of the input. -/
def partials (X : FVec F S64x128x2048 .f32) (w : FVec F S128x128x3 .f32) : FVec F S64x128x2 .f32 :=
  stack (n := 64) (a := 128) (b := 2) fun s => k0_pay3 (slab (n := 64) (a := 128) (b := 2048) X s) (weights w)

/-- The result array: slab `s` is the second region's payload at the STORED convolution of slab `s` of the input and
    at the two columns of the folded scale and shift. -/
def result (X : FVec F S64x128x2048 .f32) (w : FVec F S128x128x3 .f32) (γ β : FVec F S128 .f32) : FVec F S64x128x2048 .f32 :=
  stack (n := 64) (a := 128) (b := 2048) fun s =>
    k1_pay1 (k0_pay2 (slab (n := 64) (a := 128) (b := 2048) X s) (weights w))
      (View.ld (bnFold (partials X w) γ β) r1_1) (View.ld (bnFold (partials X w) γ β) r1_2)

variable (m : (ℓ : Loc nD τ sig) → Buf (Elt F) ℓ) (ρ : Dev nD → PrngReg)

/-! ## The first host stretch -/

/-- It does not write the input: the first region finds it as launched. -/
theorem entry0_input (c : Dev nD) : V1 m ρ c main_arg0 = m ((c.tc : Thread nD τ).loc main_arg0) := by
  show StableHlo.after hostOps0 (W0 m ρ c) (Proc.devRef .tc main_arg0) = _
  after_results

/-- It leaves the weight matrix, in the operand format, in the first region's second window's array. -/
theorem entry0_weights (c : Dev nD) : V1 m ρ c main_v2 = weights (m ((c.tc : Thread nD τ).loc main_arg1)) := by
  show StableHlo.after hostOps0 (W0 m ρ c) (Proc.devRef .tc main_v2) = _
  after_results
  rfl

/-- Nor does it write gamma or beta. -/
theorem entry0_gamma (c : Dev nD) : W1 m ρ c (Proc.devRef .tc main_arg2) = m ((c.tc : Thread nD τ).loc main_arg2) := by
  show StableHlo.after hostOps0 (W0 m ρ c) (Proc.devRef .tc main_arg2) = _
  after_results
theorem entry0_beta (c : Dev nD) : W1 m ρ c (Proc.devRef .tc main_arg3) = m ((c.tc : Thread nD τ).loc main_arg3) := by
  show StableHlo.after hostOps0 (W0 m ρ c) (Proc.devRef .tc main_arg3) = _
  after_results

/-! ## After the first region -/

/-- The stored convolution: slab `s` is the convolution payload at slab `s` of the input. -/
theorem exit0_conv (c : Dev nD) : W2 m ρ c (Proc.devRef .tc main_v3_0)
    = stack (n := 64) (a := 128) (b := 2048) fun s =>
        k0_pay2 (slab (n := 64) (a := 128) (b := 2048) (m ((c.tc : Thread nD τ).loc main_arg0)) s) (weights (m ((c.tc : Thread nD τ).loc main_arg1))) := by
  rw [show W2 m ρ c (Proc.devRef .tc main_v3_0) = (dat0 (V1 m ρ) c).arrAt 2 cfg0.N from W2_arr m ρ c 2,
    arr0_2 (V1 m ρ) c, entry0_input m ρ c, entry0_weights m ρ c]

/-- The partial statistics. -/
theorem exit0_partials (c : Dev nD) : W2 m ρ c (Proc.devRef .tc main_v3_1)
    = partials (m ((c.tc : Thread nD τ).loc main_arg0)) (m ((c.tc : Thread nD τ).loc main_arg1)) := by
  rw [show W2 m ρ c (Proc.devRef .tc main_v3_1) = (dat0 (V1 m ρ) c).arrAt 3 cfg0.N from W2_arr m ρ c 3,
    arr0_3 (V1 m ρ) c, entry0_input m ρ c, entry0_weights m ρ c]
  rfl

/-- The region writes neither gamma nor beta. -/
theorem exit0_gamma (c : Dev nD) : W2 m ρ c (Proc.devRef .tc main_arg2) = m ((c.tc : Thread nD τ).loc main_arg2) :=
  (W2_of_ne m ρ c main_arg2 (by decide)).trans (entry0_gamma m ρ c)
theorem exit0_beta (c : Dev nD) : W2 m ρ c (Proc.devRef .tc main_arg3) = m ((c.tc : Thread nD τ).loc main_arg3) :=
  (W2_of_ne m ρ c main_arg3 (by decide)).trans (entry0_beta m ρ c)

/-! ## The second host stretch -/

/-- It leaves the stored convolution alone. -/
theorem entry1_conv (c : Dev nD) : V3 m ρ c main_v3_0 = W2 m ρ c (Proc.devRef .tc main_v3_0) := by
  show StableHlo.after hostOps1 (W2 m ρ c) (Proc.devRef .tc main_v3_0) = _
  after_results_simp

/-- It leaves the folded scale and shift of the partial statistics, gamma and beta in the second region's second
    window's array: the two columns one at a time. -/
theorem entry1_fold (c : Dev nD) : V3 m ρ c main_v23
    = bnFold (W2 m ρ c (Proc.devRef .tc main_v3_1)) (W2 m ρ c (Proc.devRef .tc main_arg2)) (W2 m ρ c (Proc.devRef .tc main_arg3)) := by
  show StableHlo.after hostOps1 (W2 m ρ c) (Proc.devRef .tc main_v23) = _
  generalize W2 m ρ c = W
  after_results_simp
  unfold bnFold
  refine pair_congr _ _ ?_ ?_
  · after_results_simp
    rfl
  · after_results_simp
    rfl

/-! ## After the second region -/

/-- THE RESULT ARRAY at the last segment boundary is `result` of the four arguments as launched. -/
theorem last_result (c : Dev nD) : W4 m ρ c (Proc.devRef .tc main_v24)
    = result (m ((c.tc : Thread nD τ).loc main_arg0)) (m ((c.tc : Thread nD τ).loc main_arg1)) (m ((c.tc : Thread nD τ).loc main_arg2)) (m ((c.tc : Thread nD τ).loc main_arg3)) := by
  rw [show W4 m ρ c (Proc.devRef .tc main_v24) = (dat1 (V3 m ρ) c).arrAt 2 cfg1.N from W4_arr m ρ c 2,
    arr1_2 (V3 m ρ) c, entry1_conv m ρ c, entry1_fold m ρ c, exit0_conv m ρ c, exit0_partials m ρ c,
    exit0_gamma m ρ c, exit0_beta m ρ c]
  unfold result
  refine stack_congr fun s => ?_
  rw [slab_stack]
  rfl

/-- THE RUN: every weakly fair execution of @main terminates without a fault, the result array ends at `result` of
    the four arguments, and the arguments end as launched. -/
theorem run : θ_run defs (onTc (τ := τ) (main (F := F))) ⟨m, fun _ => 0, ρ⟩ (fun r => ∀ c : Dev nD,
      r.2.mem ((c.tc : Thread nD τ).loc main_v24)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (last_result m ρ c), (h c).2⟩) (RunV.run_last m ρ)

end Cert.KernelIdeal.ConvValue

end
-- ==== Proof.RunR.lean ====
/-
  The run of `ReferenceIdeal`'s @main with its RESULT array named.

  @main is four segments: a stretch of host operations, the first kernel region, a second stretch of host
  operations, the second kernel region. The contents of every buffer at the four segment boundaries are a fold
  from the launch memory; the last boundary's contents are `Gen.W4`. Here the program is run over those segments
  once more, and the final memory is read at the result array as well as at the four arguments: every weakly
  fair execution terminates, nothing faults, the result array ends at the last boundary's contents and the
  arguments end as launched. What the last boundary holds at the result array is the second region's output
  window after all its write-backs.
-/
import proofs.«138602_g2000005580702148_pallasbulk_207_2_alg».proof.Proof.Gen.ReferenceIdeal.Frame

set_option maxRecDepth 16384

noncomputable section

namespace Cert.ReferenceIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last segment
    boundary's contents, and the four argument arrays end as launched. -/
theorem run_last : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.ReferenceIdeal.RunV

end
-- ==== Proof.BlocksR.lean ====
/-
  What each window of `ReferenceIdeal`'s two kernel regions reads and writes, for ANY contents `V` of the buffers when the
  region is entered, and what each output array holds when the region is left.

  Both grids have 64 points and walk the leading axis of the activations: at point `t` a window whose blocks are
  [1, 128, b] holds SLAB `t` of its array (`Slabs.slab`), and a window whose block is its whole array holds that
  array. The body stores each output's payload through the whole-block rectangle, so the staging buffer after the
  body is that payload of the blocks read. Point `t` writes back slab `t` of the output array, the 64 slabs cover
  it, and so after the region each output array is the STACK over `t` of the body's payload at slab `t` of the
  inputs (`Slabs.stack`), by `Dat.arrAt_eq_of_cover`.
-/
import proofs.«138602_g2000005580702148_pallasbulk_207_2_alg».proof.Proof.Gen.ReferenceIdeal.Frame
import proofs.«138602_g2000005580702148_pallasbulk_207_2_alg».proof.Proof.LibSlabs
import Idealize.ShloMosaic.Lib.Pipeline.Value

set_option maxRecDepth 16384

noncomputable section

namespace Cert.ReferenceIdeal.Blocks

open Idealize.ShloMosaic Idealize.ShloMosaic.TcCoe Idealize.ShloMosaic.ValueIdx
open Idealize.SL.Sem
open Idealize.ShloMosaic.Pipeline (Dat Cfg Window)
open Cert.ReferenceIdeal Cert.ReferenceIdeal.Gen Slabs

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- A point of the first grid as a slab number. -/
def pt0 (t : Fin cfg0.N) : Fin 64 := ⟨t.val, lt_of_lt_of_eq t.isLt N_0⟩
/-- A point of the second grid as a slab number. -/
def pt1 (t : Fin cfg1.N) : Fin 64 := ⟨t.val, lt_of_lt_of_eq t.isLt N_1⟩

/-- Window 0 of region 0 moves with the grid along the leading axis only (decided over the 64 points). -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Element `y` of its block at point `t` is element `y` of slab `t` of the array. -/
theorem emb0_0 (t : Fin cfg0.N) (y : S1x128x2048.Idx) :
    ((cfg0.win 0).blk t).view.emb y = place (n := 64) (a := 128) (b := 2048) (pt0 t) y := by
  obtain ⟨e0, e1, e2⟩ := idx0_0 t
  have h0 := lead_eq_zero y
  funext d; apply Fin.ext
  match d with
  | ⟨0, _⟩ => show win0_0.index t (0 : Fin 3) * 1 + 1 * (y 0).val = t.val; omega
  | ⟨1, _⟩ => show win0_0.index t (1 : Fin 3) * 128 + 1 * (y 1).val = (y 1).val; omega
  | ⟨2, _⟩ => show win0_0.index t (2 : Fin 3) * 2048 + 1 * (y 2).val = (y 2).val; omega

/-- Input window 0 of region 0 holds slab `t` of its array at point `t`. -/
theorem in0_0 (c : Dev nD) (t : Fin cfg0.N) :
    iblk0 V c 0 t = slab (n := 64) (a := 128) (b := 2048) (V c main_arg0) (pt0 t) := by
  funext y
  show V c main_arg0 (((cfg0.win 0).blk t).view.emb y) = V c main_arg0 (place (pt0 t) y)
  rw [emb0_0 t y]

/-- Window 1 of region 0 stays at block 0 on every axis (decided over the 64 points). -/
theorem idx0_1 : ∀ t : Fin cfg0.N, win0_1.index t (0 : Fin 2) = 0 ∧ win0_1.index t (1 : Fin 2) = 0 :=
  (by decide +kernel : ∀ t : Fin grid0.N, _)

/-- Its block is the whole array: element `y` of the block is element `y` of the array. -/
theorem emb0_1 (t : Fin cfg0.N) (y : S128x384.Idx) : ((cfg0.win 1).blk t).view.emb y = y := by
  obtain ⟨e0, e1⟩ := idx0_1 t
  funext d; apply Fin.ext
  match d with
  | ⟨0, _⟩ => show win0_1.index t (0 : Fin 2) * 128 + 1 * (y 0).val = (y 0).val; omega
  | ⟨1, _⟩ => show win0_1.index t (1 : Fin 2) * 384 + 1 * (y 1).val = (y 1).val; omega

/-- Input window 1 of region 0 holds its whole array at every point. -/
theorem in0_1 (c : Dev nD) (t : Fin cfg0.N) : iblk0 V c 1 t = V c main_v1 := by
  funext y
  show V c main_v1 (((cfg0.win 1).blk t).view.emb y) = V c main_v1 y
  rw [emb0_1 t y]

/-- Window 2 of region 0 moves with the grid along the leading axis only (decided over the 64 points). -/
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Element `y` of its block at point `t` is element `y` of slab `t` of the array. -/
theorem emb0_2 (t : Fin cfg0.N) (y : S1x128x2.Idx) :
    ((cfg0.win 2).blk t).view.emb y = place (n := 64) (a := 128) (b := 2) (pt0 t) y := by
  obtain ⟨e0, e1, e2⟩ := idx0_2 t
  have h0 := lead_eq_zero y
  funext d; apply Fin.ext
  match d with
  | ⟨0, _⟩ => show win0_2.index t (0 : Fin 3) * 1 + 1 * (y 0).val = t.val; omega
  | ⟨1, _⟩ => show win0_2.index t (1 : Fin 3) * 128 + 1 * (y 1).val = (y 1).val; omega
  | ⟨2, _⟩ => show win0_2.index t (2 : Fin 3) * 2 + 1 * (y 2).val = (y 2).val; omega

/-- Window 0 of region 1 moves with the grid along the leading axis only (decided over the 64 points). -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)

/-- Element `y` of its block at point `t` is element `y` of slab `t` of the array. -/
theorem emb1_0 (t : Fin cfg1.N) (y : S1x128x2048.Idx) :
    ((cfg1.win 0).blk t).view.emb y = place (n := 64) (a := 128) (b := 2048) (pt1 t) y := by
  obtain ⟨e0, e1, e2⟩ := idx1_0 t
  have h0 := lead_eq_zero y
  funext d; apply Fin.ext
  match d with
  | ⟨0, _⟩ => show win1_0.index t (0 : Fin 3) * 1 + 1 * (y 0).val = t.val; omega
  | ⟨1, _⟩ => show win1_0.index t (1 : Fin 3) * 128 + 1 * (y 1).val = (y 1).val; omega
  | ⟨2, _⟩ => show win1_0.index t (2 : Fin 3) * 2048 + 1 * (y 2).val = (y 2).val; omega

/-- Input window 0 of region 1 holds slab `t` of its array at point `t`. -/
theorem in1_0 (c : Dev nD) (t : Fin cfg1.N) :
    iblk1 V c 0 t = slab (n := 64) (a := 128) (b := 2048) (V c main_arg0) (pt1 t) := by
  funext y
  show V c main_arg0 (((cfg1.win 0).blk t).view.emb y) = V c main_arg0 (place (pt1 t) y)
  rw [emb1_0 t y]

/-- Window 1 of region 1 stays at block 0 on every axis (decided over the 64 points). -/
theorem idx1_1 : ∀ t : Fin cfg1.N, win1_1.index t (0 : Fin 2) = 0 ∧ win1_1.index t (1 : Fin 2) = 0 :=
  (by decide +kernel : ∀ t : Fin grid1.N, _)

/-- Its block is the whole array: element `y` of the block is element `y` of the array. -/
theorem emb1_1 (t : Fin cfg1.N) (y : S128x384.Idx) : ((cfg1.win 1).blk t).view.emb y = y := by
  obtain ⟨e0, e1⟩ := idx1_1 t
  funext d; apply Fin.ext
  match d with
  | ⟨0, _⟩ => show win1_1.index t (0 : Fin 2) * 128 + 1 * (y 0).val = (y 0).val; omega
  | ⟨1, _⟩ => show win1_1.index t (1 : Fin 2) * 384 + 1 * (y 1).val = (y 1).val; omega

/-- Input window 1 of region 1 holds its whole array at every point. -/
theorem in1_1 (c : Dev nD) (t : Fin cfg1.N) : iblk1 V c 1 t = V c main_v1 := by
  funext y
  show V c main_v1 (((cfg1.win 1).blk t).view.emb y) = V c main_v1 y
  rw [emb1_1 t y]

/-- Window 2 of region 1 stays at block 0 on every axis (decided over the 64 points). -/
theorem idx1_2 : ∀ t : Fin cfg1.N, win1_2.index t (0 : Fin 2) = 0 ∧ win1_2.index t (1 : Fin 2) = 0 :=
  (by decide +kernel : ∀ t : Fin grid1.N, _)

/-- Its block is the whole array: element `y` of the block is element `y` of the array. -/
theorem emb1_2 (t : Fin cfg1.N) (y : S128x2.Idx) : ((cfg1.win 2).blk t).view.emb y = y := by
  obtain ⟨e0, e1⟩ := idx1_2 t
  funext d; apply Fin.ext
  match d with
  | ⟨0, _⟩ => show win1_2.index t (0 : Fin 2) * 128 + 1 * (y 0).val = (y 0).val; omega
  | ⟨1, _⟩ => show win1_2.index t (1 : Fin 2) * 2 + 1 * (y 1).val = (y 1).val; omega

/-- Input window 2 of region 1 holds its whole array at every point. -/
theorem in1_2 (c : Dev nD) (t : Fin cfg1.N) : iblk1 V c 2 t = V c main_v22 := by
  funext y
  show V c main_v22 (((cfg1.win 2).blk t).view.emb y) = V c main_v22 y
  rw [emb1_2 t y]

/-- Window 3 of region 1 moves with the grid along the leading axis only (decided over the 64 points). -/
theorem idx1_3 : ∀ t : Fin cfg1.N, win1_3.index t (0 : Fin 3) = t.val ∧ win1_3.index t (1 : Fin 3) = 0 ∧ win1_3.index t (2 : Fin 3) = 0 :=
  (by decide +kernel : ∀ t : Fin grid1.N, _)

/-- Element `y` of its block at point `t` is element `y` of slab `t` of the array. -/
theorem emb1_3 (t : Fin cfg1.N) (y : S1x128x2048.Idx) :
    ((cfg1.win 3).blk t).view.emb y = place (n := 64) (a := 128) (b := 2048) (pt1 t) y := by
  obtain ⟨e0, e1, e2⟩ := idx1_3 t
  have h0 := lead_eq_zero y
  funext d; apply Fin.ext
  match d with
  | ⟨0, _⟩ => show win1_3.index t (0 : Fin 3) * 1 + 1 * (y 0).val = t.val; omega
  | ⟨1, _⟩ => show win1_3.index t (1 : Fin 3) * 128 + 1 * (y 1).val = (y 1).val; omega
  | ⟨2, _⟩ => show win1_3.index t (2 : Fin 3) * 2048 + 1 * (y 2).val = (y 2).val; omega

/-- The body of region 0 leaves in output window 2's buffer its payload of the blocks read: one store through
    the whole-block rectangle. -/
theorem body0_2 (x0 : Vec F S1x128x2048 .f32) (x1 : Vec F S128x384 .f32) :
    out0_2 x0 x1 = k0_pay1 x0 x1 := by
  unfold out0_2
  rw [View.canon_unit_zero zeros3]
  simp only [View.ld_unit_zero (S := S1x128x2048) zeros3, View.ld_unit_zero (S := S128x384) zeros2]

/-- What point `t` writes back through output window 2 of region 0 is slab `t` of the stack of payloads. -/
theorem flushed0_2 (c : Dev nD) (t : Fin cfg0.N) :
    (dat0 V c).flushed 2 t = ((cfg0.win 2).blk t).view.read (Elt F)
      (stack (n := 64) (a := 128) (b := 2) fun s => k0_pay1 (slab (n := 64) (a := 128) (b := 2048) (V c main_arg0) s) (V c main_v1)) := by
  show (cfg0.win 2).cut (grid0.coords t) ((dat0 V c).after 2 t) = _
  rw [after0_2, body0_2, in0_0, in0_1]
  funext y
  show _ = stack (n := 64) (a := 128) (b := 2) (fun s => k0_pay1 (slab (n := 64) (a := 128) (b := 2048) (V c main_arg0) s) (V c main_v1)) (((cfg0.win 2).blk t).view.emb y)
  rw [emb0_2 t y]
  show _ = (fun s => k0_pay1 (slab (n := 64) (a := 128) (b := 2048) (V c main_arg0) s) (V c main_v1)) ((place (pt0 t) y) 0) (inside (place (pt0 t) y))
  rw [inside_place]
  rfl

/-- An index of the array lies in point `t`'s block iff each coordinate lies in the block's range on its axis. -/
theorem mem0_2 (t : Fin cfg0.N) (i : S64x128x2.Idx) :
    i ∈ ((cfg0.win 2).blk t).view.set ↔ ∀ a : Fin 3, win0_2.index t a * S1x128x2.size a ≤ (i a).val ∧ (i a).val < win0_2.index t a * S1x128x2.size a + S1x128x2.size a := by
  show i ∈ ((View.whole main_v2).slice (win0_2.rect t)).set ↔ _
  rw [View.set_slice_whole, Rect.mem_set_unit]
  exact Iff.rfl

/-- Every index of the array lies in the block of the point its leading coordinate names. -/
theorem cover0_2' (i : S64x128x2.Idx) :
    ∃ t : Fin cfg0.N, (cfg0.win 2).flush t = true ∧ i ∈ ((cfg0.win 2).blk t).view.set := by
  have hi0 : (i 0).val < 64 := (i 0).isLt
  have hi1 : (i 1).val < 128 := (i 1).isLt
  have hi2 : (i 2).val < 2 := (i 2).isLt
  have ht : (i 0).val < cfg0.N := lt_of_lt_of_eq hi0 N_0.symm
  obtain ⟨e0, e1, e2⟩ := idx0_2 ⟨(i 0).val, ht⟩
  refine ⟨⟨(i 0).val, ht⟩, flush0_2 _, ?_⟩
  rw [mem0_2]
  intro a
  match a with
  | ⟨0, _⟩ => show win0_2.index ⟨(i 0).val, ht⟩ (0 : Fin 3) * 1 ≤ (i 0).val ∧ (i 0).val < win0_2.index ⟨(i 0).val, ht⟩ (0 : Fin 3) * 1 + 1; rw [e0]; show (i 0).val * 1 ≤ (i 0).val ∧ (i 0).val < (i 0).val * 1 + 1; omega
  | ⟨1, _⟩ => show win0_2.index ⟨(i 0).val, ht⟩ (1 : Fin 3) * 128 ≤ (i 1).val ∧ (i 1).val < win0_2.index ⟨(i 0).val, ht⟩ (1 : Fin 3) * 128 + 128; omega
  | ⟨2, _⟩ => show win0_2.index ⟨(i 0).val, ht⟩ (2 : Fin 3) * 2 ≤ (i 2).val ∧ (i 2).val < win0_2.index ⟨(i 0).val, ht⟩ (2 : Fin 3) * 2 + 2; omega

/-- AFTER REGION 0 its output array of window 2 is the stack, over the 64 slabs, of the body's payload at that slab
    of the blocked inputs and at the whole-array inputs. -/
theorem arr0_2 (c : Dev nD) :
    (dat0 V c).arrAt 2 cfg0.N = stack (n := 64) (a := 128) (b := 2) fun s => k0_pay1 (slab (n := 64) (a := 128) (b := 2048) (V c main_arg0) s) (V c main_v1) :=
  (dat0 V c).arrAt_eq_of_cover 2 _ (fun t _ => flushed0_2 V c t) cover0_2'

/-- The body of region 1 leaves in output window 3's buffer its payload of the blocks read: one store through
    the whole-block rectangle. -/
theorem body1_3 (x0 : Vec F S1x128x2048 .f32) (x1 : Vec F S128x384 .f32) (x2 : Vec F S128x2 .f32) :
    out1_3 x0 x1 x2 = k1_pay1 x0 x1 (View.ld x2 r1_2) (View.ld x2 r1_3) := by
  unfold out1_3
  rw [View.canon_unit_zero zeros3]
  simp only [View.ld_unit_zero (S := S1x128x2048) zeros3, View.ld_unit_zero (S := S128x384) zeros2]

/-- What point `t` writes back through output window 3 of region 1 is slab `t` of the stack of payloads. -/
theorem flushed1_3 (c : Dev nD) (t : Fin cfg1.N) :
    (dat1 V c).flushed 3 t = ((cfg1.win 3).blk t).view.read (Elt F)
      (stack (n := 64) (a := 128) (b := 2048) fun s => k1_pay1 (slab (n := 64) (a := 128) (b := 2048) (V c main_arg0) s) (V c main_v1) (View.ld (V c main_v22) r1_2) (View.ld (V c main_v22) r1_3)) := by
  show (cfg1.win 3).cut (grid1.coords t) ((dat1 V c).after 3 t) = _
  rw [after1_3, body1_3, in1_0, in1_1, in1_2]
  funext y
  show _ = stack (n := 64) (a := 128) (b := 2048) (fun s => k1_pay1 (slab (n := 64) (a := 128) (b := 2048) (V c main_arg0) s) (V c main_v1) (View.ld (V c main_v22) r1_2) (View.ld (V c main_v22) r1_3)) (((cfg1.win 3).blk t).view.emb y)
  rw [emb1_3 t y]
  show _ = (fun s => k1_pay1 (slab (n := 64) (a := 128) (b := 2048) (V c main_arg0) s) (V c main_v1) (View.ld (V c main_v22) r1_2) (View.ld (V c main_v22) r1_3)) ((place (pt1 t) y) 0) (inside (place (pt1 t) y))
  rw [inside_place]
  rfl

/-- An index of the array lies in point `t`'s block iff each coordinate lies in the block's range on its axis. -/
theorem mem1_3 (t : Fin cfg1.N) (i : S64x128x2048.Idx) :
    i ∈ ((cfg1.win 3).blk t).view.set ↔ ∀ a : Fin 3, win1_3.index t a * S1x128x2048.size a ≤ (i a).val ∧ (i a).val < win1_3.index t a * S1x128x2048.size a + S1x128x2048.size a := by
  show i ∈ ((View.whole main_v23).slice (win1_3.rect t)).set ↔ _
  rw [View.set_slice_whole, Rect.mem_set_unit]
  exact Iff.rfl

/-- Every index of the array lies in the block of the point its leading coordinate names. -/
theorem cover1_3' (i : S64x128x2048.Idx) :
    ∃ t : Fin cfg1.N, (cfg1.win 3).flush t = true ∧ i ∈ ((cfg1.win 3).blk t).view.set := by
  have hi0 : (i 0).val < 64 := (i 0).isLt
  have hi1 : (i 1).val < 128 := (i 1).isLt
  have hi2 : (i 2).val < 2048 := (i 2).isLt
  have ht : (i 0).val < cfg1.N := lt_of_lt_of_eq hi0 N_1.symm
  obtain ⟨e0, e1, e2⟩ := idx1_3 ⟨(i 0).val, ht⟩
  refine ⟨⟨(i 0).val, ht⟩, flush1_3 _, ?_⟩
  rw [mem1_3]
  intro a
  match a with
  | ⟨0, _⟩ => show win1_3.index ⟨(i 0).val, ht⟩ (0 : Fin 3) * 1 ≤ (i 0).val ∧ (i 0).val < win1_3.index ⟨(i 0).val, ht⟩ (0 : Fin 3) * 1 + 1; rw [e0]; show (i 0).val * 1 ≤ (i 0).val ∧ (i 0).val < (i 0).val * 1 + 1; omega
  | ⟨1, _⟩ => show win1_3.index ⟨(i 0).val, ht⟩ (1 : Fin 3) * 128 ≤ (i 1).val ∧ (i 1).val < win1_3.index ⟨(i 0).val, ht⟩ (1 : Fin 3) * 128 + 128; omega
  | ⟨2, _⟩ => show win1_3.index ⟨(i 0).val, ht⟩ (2 : Fin 3) * 2048 ≤ (i 2).val ∧ (i 2).val < win1_3.index ⟨(i 0).val, ht⟩ (2 : Fin 3) * 2048 + 2048; omega

/-- AFTER REGION 1 its output array of window 3 is the stack, over the 64 slabs, of the body's payload at that slab
    of the blocked inputs and at the whole-array inputs. -/
theorem arr1_3 (c : Dev nD) :
    (dat1 V c).arrAt 3 cfg1.N = stack (n := 64) (a := 128) (b := 2048) fun s => k1_pay1 (slab (n := 64) (a := 128) (b := 2048) (V c main_arg0) s) (V c main_v1) (View.ld (V c main_v22) r1_2) (View.ld (V c main_v22) r1_3) :=
  (dat1 V c).arrAt_eq_of_cover 3 _ (fun t _ => flushed1_3 V c t) cover1_3'

end Cert.ReferenceIdeal.Blocks

end
-- ==== Proof.ValueR.lean ====
/-
  What `ReferenceIdeal`'s result array holds after the run, as ONE function of the four argument arrays.

  Read forward through @main's four segments. The first host stretch lays the weight out as a matrix. The first
  kernel region writes, slab by slab, the row sums of the convolution of slab `s` of the input with that matrix and
  of its square; it reads the input and the matrix and leaves them as they were. The second host stretch folds the
  partial sums into the packed scale and shift (`ConvBn.bnFold`). The second kernel region reads slab `s` of the
  INPUT again, the matrix and the two columns of scale and shift, recomputes the convolution and writes slab `s` of
  the result: `result`.
-/
import proofs.«138602_g2000005580702148_pallasbulk_207_2_alg».proof.Proof.RunR
import proofs.«138602_g2000005580702148_pallasbulk_207_2_alg».proof.Proof.BlocksR
import proofs.«138602_g2000005580702148_pallasbulk_207_2_alg».proof.Proof.Spec
import Idealize.ShloMosaic.Lib.StableHlo.Run

set_option maxRecDepth 16384

noncomputable section

namespace Cert.ReferenceIdeal.ConvValue

open Idealize.ShloMosaic Idealize.ShloMosaic.TcCoe Idealize.ShloMosaic.Tactic Idealize.ShloMosaic.StableHlo
open Idealize.SL.Sem
open Cert.ReferenceIdeal Cert.ReferenceIdeal.Gen Cert.ReferenceIdeal.Blocks Slabs ConvBn

variable {F : FTy → Type} [FloatOps F]

/-- The partial statistics the first region leaves: slab `s` is the statistics payload at slab `s` of the input. -/
def partials (X : FVec F S64x128x2048 .f32) (w : FVec F S128x128x3 .f32) : FVec F S64x128x2 .f32 :=
  stack (n := 64) (a := 128) (b := 2) fun s => k0_pay1 (slab (n := 64) (a := 128) (b := 2048) X s) (weightMatrix w)

/-- The result array: slab `s` is the second region's payload at slab `s` of the input, the weight matrix and the two
    columns of the folded scale and shift. -/
def result (X : FVec F S64x128x2048 .f32) (w : FVec F S128x128x3 .f32) (γ β : FVec F S128 .f32) : FVec F S64x128x2048 .f32 :=
  stack (n := 64) (a := 128) (b := 2048) fun s =>
    k1_pay1 (slab (n := 64) (a := 128) (b := 2048) X s) (weightMatrix w)
      (View.ld (bnFold (partials X w) γ β) r1_2) (View.ld (bnFold (partials X w) γ β) r1_3)

variable (m : (ℓ : Loc nD τ sig) → Buf (Elt F) ℓ) (ρ : Dev nD → PrngReg)

/-! ## The first host stretch -/

/-- It does not write the input: the first region finds it as launched. -/
theorem entry0_input (c : Dev nD) : V1 m ρ c main_arg0 = m ((c.tc : Thread nD τ).loc main_arg0) := by
  show StableHlo.after hostOps0 (W0 m ρ c) (Proc.devRef .tc main_arg0) = _
  after_results

/-- It leaves the weight matrix in the first region's second window's array. -/
theorem entry0_weights (c : Dev nD) : V1 m ρ c main_v1 = weightMatrix (m ((c.tc : Thread nD τ).loc main_arg1)) := by
  show StableHlo.after hostOps0 (W0 m ρ c) (Proc.devRef .tc main_v1) = _
  after_results
  rfl

/-- Nor does it write gamma or beta. -/
theorem entry0_gamma (c : Dev nD) : W1 m ρ c (Proc.devRef .tc main_arg2) = m ((c.tc : Thread nD τ).loc main_arg2) := by
  show StableHlo.after hostOps0 (W0 m ρ c) (Proc.devRef .tc main_arg2) = _
  after_results
theorem entry0_beta (c : Dev nD) : W1 m ρ c (Proc.devRef .tc main_arg3) = m ((c.tc : Thread nD τ).loc main_arg3) := by
  show StableHlo.after hostOps0 (W0 m ρ c) (Proc.devRef .tc main_arg3) = _
  after_results

/-! ## After the first region -/

/-- The partial statistics. -/
theorem exit0_partials (c : Dev nD) : W2 m ρ c (Proc.devRef .tc main_v2)
    = partials (m ((c.tc : Thread nD τ).loc main_arg0)) (m ((c.tc : Thread nD τ).loc main_arg1)) := by
  rw [show W2 m ρ c (Proc.devRef .tc main_v2) = (dat0 (V1 m ρ) c).arrAt 2 cfg0.N from W2_arr m ρ c 2,
    arr0_2 (V1 m ρ) c, entry0_input m ρ c, entry0_weights m ρ c]
  rfl

/-- The region reads the input and the weight matrix through input windows: they end as entered. -/
theorem exit0_input (c : Dev nD) : W2 m ρ c (Proc.devRef .tc main_arg0) = m ((c.tc : Thread nD τ).loc main_arg0) :=
  (W2_arr m ρ c 0).trans (((dat0 (V1 m ρ) c).arrAt_in 0 rfl _).trans ((A_eq0 (V1 m ρ) c 0).trans (entry0_input m ρ c)))
theorem exit0_weights (c : Dev nD) : W2 m ρ c (Proc.devRef .tc main_v1) = weightMatrix (m ((c.tc : Thread nD τ).loc main_arg1)) :=
  (W2_arr m ρ c 1).trans (((dat0 (V1 m ρ) c).arrAt_in 1 rfl _).trans ((A_eq0 (V1 m ρ) c 1).trans (entry0_weights m ρ c)))

/-- It writes neither gamma nor beta. -/
theorem exit0_gamma (c : Dev nD) : W2 m ρ c (Proc.devRef .tc main_arg2) = m ((c.tc : Thread nD τ).loc main_arg2) :=
  (W2_of_ne m ρ c main_arg2 (by decide)).trans (entry0_gamma m ρ c)
theorem exit0_beta (c : Dev nD) : W2 m ρ c (Proc.devRef .tc main_arg3) = m ((c.tc : Thread nD τ).loc main_arg3) :=
  (W2_of_ne m ρ c main_arg3 (by decide)).trans (entry0_beta m ρ c)

/-! ## The second host stretch -/

/-- It leaves the input and the weight matrix alone. -/
theorem entry1_input (c : Dev nD) : V3 m ρ c main_arg0 = W2 m ρ c (Proc.devRef .tc main_arg0) := by
  show StableHlo.after hostOps1 (W2 m ρ c) (Proc.devRef .tc main_arg0) = _
  after_results_simp
theorem entry1_weights (c : Dev nD) : V3 m ρ c main_v1 = W2 m ρ c (Proc.devRef .tc main_v1) := by
  show StableHlo.after hostOps1 (W2 m ρ c) (Proc.devRef .tc main_v1) = _
  after_results_simp

/-- It leaves the folded scale and shift of the partial statistics, gamma and beta in the second region's third
    window's array: the two columns one at a time. -/
theorem entry1_fold (c : Dev nD) : V3 m ρ c main_v22
    = bnFold (W2 m ρ c (Proc.devRef .tc main_v2)) (W2 m ρ c (Proc.devRef .tc main_arg2)) (W2 m ρ c (Proc.devRef .tc main_arg3)) := by
  show StableHlo.after hostOps1 (W2 m ρ c) (Proc.devRef .tc main_v22) = _
  generalize W2 m ρ c = W
  after_results_simp
  unfold bnFold
  refine pair_congr _ _ ?_ ?_
  · after_results_simp
    rfl
  · after_results_simp
    rfl

/-! ## After the second region -/

/-- THE RESULT ARRAY at the last segment boundary is `result` of the four arguments as launched. -/
theorem last_result (c : Dev nD) : W4 m ρ c (Proc.devRef .tc main_v23)
    = result (m ((c.tc : Thread nD τ).loc main_arg0)) (m ((c.tc : Thread nD τ).loc main_arg1)) (m ((c.tc : Thread nD τ).loc main_arg2)) (m ((c.tc : Thread nD τ).loc main_arg3)) := by
  rw [show W4 m ρ c (Proc.devRef .tc main_v23) = (dat1 (V3 m ρ) c).arrAt 3 cfg1.N from W4_arr m ρ c 3,
    arr1_3 (V3 m ρ) c, entry1_input m ρ c, entry1_weights m ρ c, entry1_fold m ρ c, exit0_input m ρ c,
    exit0_weights m ρ c, exit0_partials m ρ c, exit0_gamma m ρ c, exit0_beta m ρ c]
  rfl

/-- THE RUN: every weakly fair execution of @main terminates without a fault, the result array ends at `result` of
    the four arguments, and the arguments end as launched. -/
theorem run : θ_run defs (onTc (τ := τ) (main (F := F))) ⟨m, fun _ => 0, ρ⟩ (fun r => ∀ c : Dev nD,
      r.2.mem ((c.tc : Thread nD τ).loc main_v23)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (last_result m ρ c), (h c).2⟩) (RunV.run_last m ρ)

end Cert.ReferenceIdeal.ConvValue

end
-- ==== Proof.Payloads.lean ====
/-
  At the extended reals the kernel's payloads ARE the reference's.

  A change of float format is the identity there, and both programs pad the shifted taps with zero (the kernel with
  the narrow format's zero word, the reference with the wide one's: both denote 0). So:

  * the kernel's convolution of a slab with the weight matrix in the narrow format is the reference's convolution
    of the slab with the weight matrix itself — the same zero-padded shifts, the same stacking of the three taps, the
    same contraction;
  * hence the kernel's row statistics (sums of the convolution and of its square) are the reference's;
  * and the kernel's second payload at its STORED convolution — narrowed, cast to the block's shape, cast back,
    widened — is the reference's second payload, which recomputes the convolution: the two casts undo one another,
    and what follows (times the scale column, plus the shift column, maximum with zero) is the same text.
-/
import proofs.«138602_g2000005580702148_pallasbulk_207_2_alg».proof.Proof.Gen.KernelIdeal.Skeleton
import proofs.«138602_g2000005580702148_pallasbulk_207_2_alg».proof.Proof.Gen.ReferenceIdeal.Skeleton
import Idealize.ShloMosaic.PureOps.Ideal.Laws
import Idealize.ShloMosaic.Lib.IdealHost
import Idealize.ShloMosaic.Lib.Pipeline.Value

set_option maxRecDepth 16384

noncomputable section

namespace Cert.SamePayloads

open Idealize.ShloMosaic

/-- The narrow format's zero word denotes 0, -/
theorem zero_narrow : (FloatOps.ofBits (F := Ideal) .bf16 0x0000#16) = (0 : EReal) := Ideal.ofBits_zero_bf16
/-- and so does the wide format's. -/
theorem zero_wide : (FloatOps.ofBits (F := Ideal) .f32 0x00000000#32) = (0 : EReal) := Ideal.ofBits_zero_f32

/-- THE CONVOLUTION of a slab: the kernel's, with the weight matrix narrowed, is the reference's statistics'
    operand — stated through the statistics payload, which is a function of the convolution alone. -/
theorem stats_eq (x : Vec Ideal Cert.KernelIdeal.S1x128x2048 .f32) (w : FVec Ideal Cert.KernelIdeal.S128x384 .f32) :
    Cert.KernelIdeal.Gen.k0_pay3 (F := Ideal) x (truncf .bf16 w Cert.KernelIdeal.Gen.bitsLt_bf16_f32)
      = Cert.ReferenceIdeal.Gen.k0_pay1 (F := Ideal) x w := by
  unfold Cert.KernelIdeal.Gen.k0_pay3 Cert.KernelIdeal.Gen.k0_pay1 Cert.ReferenceIdeal.Gen.k0_pay1
  rw [zero_narrow, zero_wide]
  rfl

/-- THE SECOND PAYLOAD at the kernel's STORED convolution is the reference's second payload, which recomputes it: the
    stored block is the convolution narrowed and cast to the block's shape; read back it is cast to the matrix's shape
    and widened; the two casts undo one another and the format changes are the identity. -/
theorem out_eq (x : Vec Ideal Cert.KernelIdeal.S1x128x2048 .f32) (w : FVec Ideal Cert.KernelIdeal.S128x384 .f32)
    (s0 s1 : Vec Ideal Cert.KernelIdeal.S128x1 .f32) :
    Cert.KernelIdeal.Gen.k1_pay1 (F := Ideal)
        (Cert.KernelIdeal.Gen.k0_pay2 (F := Ideal) x (truncf .bf16 w Cert.KernelIdeal.Gen.bitsLt_bf16_f32)) s0 s1
      = Cert.ReferenceIdeal.Gen.k1_pay1 (F := Ideal) x w s0 s1 := by
  unfold Cert.KernelIdeal.Gen.k1_pay1 Cert.KernelIdeal.Gen.k0_pay2 Cert.KernelIdeal.Gen.k0_pay1 Cert.ReferenceIdeal.Gen.k1_pay1
  rw [shapeCast_shapeCast, zero_narrow, zero_wide]
  rfl

end Cert.SamePayloads

end
-- ==== Proof.Same.lean ====
/-
  The two programs compute ONE function of the argument arrays at the extended reals.

  The kernel's result is the stack over slabs `s` of its second payload at its stored convolution of slab `s` and at
  the folded statistics; the reference's is the stack of its second payload at slab `s` itself, the weight matrix and
  the folded statistics. The partial statistics agree slab by slab (`SamePayloads.stats_eq`), so the folded scale
  and shift are the same matrix on both sides, the same two columns are loaded from it, and the second payloads agree
  slab by slab (`SamePayloads.out_eq`). No law of arithmetic is used beyond "a change of format is the identity" and
  "both zero words denote 0": neither side reassociates, distributes or cancels anything, so nothing here needs the
  inputs to be finite.
-/
import proofs.«138602_g2000005580702148_pallasbulk_207_2_alg».proof.Proof.ValueK
import proofs.«138602_g2000005580702148_pallasbulk_207_2_alg».proof.Proof.ValueR
import proofs.«138602_g2000005580702148_pallasbulk_207_2_alg».proof.Proof.Payloads

set_option maxRecDepth 16384

noncomputable section

namespace Cert.SameResult

open Idealize.ShloMosaic Slabs ConvBn

/-- The partial statistics of the two programs are one array. -/
theorem partials_eq (X : FVec Ideal Cert.KernelIdeal.S64x128x2048 .f32) (w : FVec Ideal Cert.KernelIdeal.S128x128x3 .f32) :
    Cert.KernelIdeal.ConvValue.partials (F := Ideal) X w = Cert.ReferenceIdeal.ConvValue.partials (F := Ideal) X w :=
  stack_congr fun s => Cert.SamePayloads.stats_eq _ _

/-- THE RESULT ARRAYS of the two programs are one function of the four arguments. -/
theorem result_eq (X : FVec Ideal Cert.KernelIdeal.S64x128x2048 .f32) (w : FVec Ideal Cert.KernelIdeal.S128x128x3 .f32)
    (γ β : FVec Ideal Cert.KernelIdeal.S128 .f32) :
    Cert.KernelIdeal.ConvValue.result (F := Ideal) X w γ β = Cert.ReferenceIdeal.ConvValue.result (F := Ideal) X w γ β := by
  unfold Cert.KernelIdeal.ConvValue.result Cert.ReferenceIdeal.ConvValue.result
  rw [partials_eq X w]
  exact stack_congr fun s => Cert.SamePayloads.out_eq _ _ _ _

end Cert.SameResult

end
-- ==== Proof.lean ====
/-
  `Cert.Claim` for a 1-D convolution (three taps, zero padding, no bias) followed by batch normalisation over the
  batch statistics and a ReLU, on activations [64, 128, 2048].

  The kernel runs the convolution ONCE: its first pallas_call writes, per batch element, the convolution (stored in a
  narrower float format) together with the per-channel row sums of the convolution and of its square; the host folds
  the sums over the batch into a per-channel scale and shift; its second pallas_call reads the STORED convolution back
  and applies scale, shift and ReLU. The reference runs the convolution TWICE: its first pallas_call writes only the row
  sums, the host folds them in the same way, and its second pallas_call recomputes the convolution from the input before
  applying scale, shift and ReLU.

  At the extended reals a change of float format is the identity, so the stored-and-re-read convolution IS the
  recomputed one, and the two programs are one function of the four arguments (`SameResult.result_eq`). Each
  program's result array is read off its run over @main's four segments (`KernelIdeal.ConvValue.run`,
  `ReferenceIdeal.ConvValue.run`): each kernel region leaves in its output array the stack, over the 64 slabs of the
  leading axis, of its body's payload at that slab of its inputs. The three frame claims are the generated frames; the
  ideal pass rewrote nothing, so there is nothing to preserve.
-/
import proofs.«138602_g2000005580702148_pallasbulk_207_2_alg».proof.Defs
import proofs.«138602_g2000005580702148_pallasbulk_207_2_alg».proof.Proof.Gen.Kernel
import proofs.«138602_g2000005580702148_pallasbulk_207_2_alg».proof.Proof.Gen.Kernel.Frame
import proofs.«138602_g2000005580702148_pallasbulk_207_2_alg».proof.Proof.Gen.KernelIdeal
import proofs.«138602_g2000005580702148_pallasbulk_207_2_alg».proof.Proof.Gen.KernelIdeal.Frame
import proofs.«138602_g2000005580702148_pallasbulk_207_2_alg».proof.Proof.Gen.ReferenceIdeal
import proofs.«138602_g2000005580702148_pallasbulk_207_2_alg».proof.Proof.Gen.ReferenceIdeal.Frame
import proofs.«138602_g2000005580702148_pallasbulk_207_2_alg».proof.Proof.Gen.Pre_finite_inputs
import proofs.«138602_g2000005580702148_pallasbulk_207_2_alg».proof.Proof.Same
import Idealize.ShloMosaic.Adequacy
import Idealize.ShloMosaic.Init

noncomputable section

namespace Cert.Proof

open Idealize.ShloMosaic Idealize.SL.Sem

/-- The word-level kernel terminates, faults nowhere and leaves its arguments as launched. -/
theorem frame_k : Cert.frame_Kernel := fun m ρ _ => Cert.Kernel.Gen.frame m ρ
/-- So does the idealized kernel, -/
theorem frame_ki : Cert.frame_KernelIdeal := fun m ρ _ => Cert.KernelIdeal.Gen.frame m ρ
/-- and the idealized reference. -/
theorem frame_ri : Cert.frame_ReferenceIdeal := fun m ρ _ => Cert.ReferenceIdeal.Gen.frame m ρ

/-- The idealization is the kernel's own text read at the extended reals: no rewrite to justify. -/
theorem preserves : Cert.preserves_Kernel_KernelIdeal := trivial

/-- From memories that agree on the arguments both idealized programs run, and both result arrays end at the
    kernel's function of the arguments: the reference's function is the same one. -/
theorem algebraic : Cert.algebraic_KernelIdeal_ReferenceIdeal := by
  intro m ρ m' ρ' _ hagree
  refine ⟨_, Cert.KernelIdeal.ConvValue.run (F := Ideal) m ρ, ?_⟩
  refine (θ_run Cert.ReferenceIdeal.defs _ _).mono (fun _ h c => ⟨(h c).1.trans ?_, (h c).2⟩)
    (Cert.ReferenceIdeal.ConvValue.run (F := Ideal) m' ρ')
  rw [(hagree c).1, (hagree c).2.1, (hagree c).2.2.1, (hagree c).2.2.2]
  exact (Cert.SameResult.result_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
